-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x8x2048x64 : Shape := ⟨4, ![4, 8, 2048, 64]⟩
abbrev S4x8x64x2048 : Shape := ⟨4, ![4, 8, 64, 2048]⟩
abbrev S_ : Shape := ⟨0, ![]⟩

class Facts : Prop where
  bcast_S_S4x8x2048x64 : S_.BroadcastsInDim S4x8x2048x64 (![] : Fin 0 → Fin S4x8x2048x64.rank)
  reducesTo_S4x8x2048x64_S_d0_1_2_3 : S4x8x2048x64.ReducesTo [0, 1, 2, 3] S_
  h_S_ : 0 < S_.numel
  bcast_S_S4x8x64x2048 : S_.BroadcastsInDim S4x8x64x2048 (![] : Fin 0 → Fin S4x8x64x2048.rank)
  reducesTo_S4x8x64x2048_S_d0_1_2_3 : S4x8x64x2048.ReducesTo [0, 1, 2, 3] S_

variable [Facts]

def fn {F : FTy → Type} [FloatOps F] (main_arg0 : FVec F S4x8x2048x64 .f32) (main_arg1 : FVec F S4x8x64x2048 .f32) : IVec S_ 1 :=
  let main_v0 : FVec F S4x8x2048x64 .f32 := Host.absf main_arg0
  let main_cst : FVec F S_ .f32 := constant S_ .f32 0x7F800000#32
  let main_v1 : FVec F S4x8x2048x64 .f32 := broadcastInDim S4x8x2048x64 ![] bcast_S_S4x8x2048x64 main_cst
  let main_v2 : IVec S4x8x2048x64 1 := cmpf .olt main_v0 main_v1
  let main_c : IVec S_ 1 := constantI S_ 1 1#1
  let main_v3 : IVec S_ 1 := (fun x v => Host.reduce IntOp.andi x v reducesTo_S4x8x2048x64_S_d0_1_2_3 h_S_) main_v2 main_c
  let main_v4 : FVec F S4x8x64x2048 .f32 := Host.absf main_arg1
  let main_cst_0 : FVec F S_ .f32 := constant S_ .f32 0x7F800000#32
  let main_v5 : FVec F S4x8x64x2048 .f32 := broadcastInDim S4x8x64x2048 ![] bcast_S_S4x8x64x2048 main_cst_0
  let main_v6 : IVec S4x8x64x2048 1 := cmpf .olt main_v4 main_v5
  let main_c_1 : IVec S_ 1 := constantI S_ 1 1#1
  let main_v7 : IVec S_ 1 := (fun x v => Host.reduce IntOp.andi x v reducesTo_S4x8x64x2048_S_d0_1_2_3 h_S_) main_v6 main_c_1
  let main_v8 : IVec S_ 1 := andi main_v3 main_v7
  main_v8
-- ==== Kernel.lean ====
abbrev S4x8x2048x64 : Shape := ⟨4, ![4, 8, 2048, 64]⟩
abbrev S4x8x64x2048 : Shape := ⟨4, ![4, 8, 64, 2048]⟩
abbrev S32x2048x64 : Shape := ⟨3, ![32, 2048, 64]⟩
abbrev S32x64x2048 : Shape := ⟨3, ![32, 64, 2048]⟩
abbrev S32x2048x2048 : Shape := ⟨3, ![32, 2048, 2048]⟩
abbrev S1x1024x64 : Shape := ⟨3, ![1, 1024, 64]⟩
abbrev S1x64x2048 : Shape := ⟨3, ![1, 64, 2048]⟩
abbrev S1x1024x2048 : Shape := ⟨3, ![1, 1024, 2048]⟩
abbrev S1024x64 : Shape := ⟨2, ![1024, 64]⟩
abbrev S64x2048 : Shape := ⟨2, ![64, 2048]⟩
abbrev S1024 : Shape := ⟨1, ![1024]⟩
abbrev S1024x1 : Shape := ⟨2, ![1024, 1]⟩
abbrev S2048 : Shape := ⟨1, ![2048]⟩
abbrev S1x2048 : Shape := ⟨2, ![1, 2048]⟩
abbrev S1024x66 : Shape := ⟨2, ![1024, 66]⟩
abbrev S66x2048 : Shape := ⟨2, ![66, 2048]⟩
abbrev S1024x2048 : Shape := ⟨2, ![1024, 2048]⟩
abbrev S4x8x2048x2048 : Shape := ⟨4, ![4, 8, 2048, 2048]⟩

abbrev nBuf : Space → Nat
  | .hbm => 6
  | .vmem => 6
  | .smem => 0
  | _ => 0

abbrev bufTy : (tb : Table) → Fin (tcTables nBuf tb) → BufTy
  | .hbm, ⟨0, _⟩ => ⟨S4x8x2048x64, .f32⟩
  | .hbm, ⟨1, _⟩ => ⟨S4x8x64x2048, .f32⟩
  | .hbm, ⟨2, _⟩ => ⟨S32x2048x64, .f32⟩
  | .hbm, ⟨3, _⟩ => ⟨S32x64x2048, .f32⟩
  | .hbm, ⟨4, _⟩ => ⟨S32x2048x2048, .f32⟩
  | .hbm, ⟨5, _⟩ => ⟨S4x8x2048x2048, .f32⟩
  | .local _ .vmem, ⟨0, _⟩ => ⟨S1x1024x64, .f32⟩
  | .local _ .vmem, ⟨1, _⟩ => ⟨S1x1024x64, .f32⟩
  | .local _ .vmem, ⟨2, _⟩ => ⟨S1x64x2048, .f32⟩
  | .local _ .vmem, ⟨3, _⟩ => ⟨S1x64x2048, .f32⟩
  | .local _ .vmem, ⟨4, _⟩ => ⟨S1x1024x2048, .f32⟩
  | .local _ .vmem, ⟨5, _⟩ => ⟨S1x1024x2048, .f32⟩
  | _, _ => ⟨S4x8x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![32, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  shapeCasts_S4x8x2048x64_S32x2048x64 : S4x8x2048x64.ShapeCasts S32x2048x64
  shapeCasts_S4x8x64x2048_S32x64x2048 : S4x8x64x2048.ShapeCasts S32x64x2048
  inb_S1x1024x64_S1x1024x64_0_0_0 : ∀ a, (![0, 0, 0] : Fin 3 → Nat) a + S1x1024x64.size a ≤ S1x1024x64.size a
  h_S1x1024x64 : 0 < S1x1024x64.numel
  shapeCasts_S1x1024x64_S1024x64 : S1x1024x64.ShapeCasts S1024x64
  inb_S1x64x2048_S1x64x2048_0_0_0 : ∀ a, (![0, 0, 0] : Fin 3 → Nat) a + S1x64x2048.size a ≤ S1x64x2048.size a
  h_S1x64x2048 : 0 < S1x64x2048.numel
  shapeCasts_S1x64x2048_S64x2048 : S1x64x2048.ShapeCasts S64x2048
  reduces_S1024x64_S1024 : S1024x64.Reduces [1] S1024
  shapeCasts_S1024_S1024x1 : S1024.ShapeCasts S1024x1
  reduces_S64x2048_S2048 : S64x2048.Reduces [0] S2048
  shapeCasts_S2048_S1x2048 : S2048.ShapeCasts S1x2048
  concatenates_S1024x64_S1024x1_S1024x1_S1024x66_d1 : Shape.Concatenates [S1024x64, S1024x1, S1024x1] S1024x66 1
  bitsLt_bf16_f32 : FTy.bits .bf16 < FTy.bits .f32
  concatenates_S64x2048_S1x2048_S1x2048_S66x2048_d0 : Shape.Concatenates [S64x2048, S1x2048, S1x2048] S66x2048 0
  inb_S1x1024x2048_S1x1024x2048_0_0_0 : ∀ a, (![0, 0, 0] : Fin 3 → Nat) a + S1x1024x2048.size a ≤ S1x1024x2048.size a
  h_S1x1024x2048 : 0 < S1x1024x2048.numel
  shapeCasts_S1x1024x2048_S1024x2048 : S1x1024x2048.ShapeCasts S1024x2048
  shapeCasts_S1024x2048_S1x1024x2048 : S1024x2048.ShapeCasts S1x1024x2048
  shapeCasts_S32x2048x2048_S4x8x2048x2048 : S32x2048x2048.ShapeCasts S4x8x2048x2048
  dot_S1024x66_S66x2048_S1024x2048_1_0_0_1_n_n_wf : DotDims.WF S1024x66 S66x2048 S1024x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x64.size a ≤ S32x2048x64.size a
  hwx0_0 : ∀ i : grid0.Coords, EltTy.bits .f32 = 32 ∨ (Rect.block (s := S32x2048x64) S1x1024x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x64x2048.size a ≤ S32x64x2048.size a
  hwx0_1 : ∀ i : grid0.Coords, EltTy.bits .f32 = 32 ∨ (Rect.block (s := S32x64x2048) S1x64x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x2048.size a ≤ S32x2048x2048.size a
  hwx0_2 : ∀ i : grid0.Coords, EltTy.bits .f32 = 32 ∨ (Rect.block (s := S32x2048x2048) S1x1024x2048.size (cc0_transform_2 i) (hinb0_2 i)).WholeWords (EltTy.packing .f32)

variable [Facts₀]

def dot_S1024x66_S66x2048_S1024x2048_1_0_0_1_n_n : DotDims S1024x66 S66x2048 S1024x2048 where
  lhsContracting := [1]
  rhsContracting := [0]
  lhsNonContracting := [0]
  rhsNonContracting := [1]
  lhsBatch := []
  rhsBatch := []
  wf := dot_S1024x66_S66x2048_S1024x2048_1_0_0_1_n_n_wf

abbrev win0_0 : Pipeline.Window sig grid0 :=
  Pipeline.Window.ofSpec (Memref.whole main_v0) S1x1024x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x64x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1024x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4x8x2048x64 : Shape := ⟨4, ![4, 8, 2048, 64]⟩
abbrev S4x8x64x2048 : Shape := ⟨4, ![4, 8, 64, 2048]⟩
abbrev S_ : Shape := ⟨0, ![]⟩
abbrev S4x8x2048 : Shape := ⟨3, ![4, 8, 2048]⟩
abbrev S4x8x2048x1 : Shape := ⟨4, ![4, 8, 2048, 1]⟩
abbrev S4x8x1x2048 : Shape := ⟨4, ![4, 8, 1, 2048]⟩
abbrev S4x8x2048x2048 : Shape := ⟨4, ![4, 8, 2048, 2048]⟩

abbrev nBuf : Space → Nat
  | .hbm => 18
  | .vmem => 0
  | .smem => 0
  | _ => 0

abbrev bufTy : (tb : Table) → Fin (tcTables nBuf tb) → BufTy
  | .hbm, ⟨0, _⟩ => ⟨S4x8x2048x64, .f32⟩
  | .hbm, ⟨1, _⟩ => ⟨S4x8x64x2048, .f32⟩
  | .hbm, ⟨2, _⟩ => ⟨S4x8x2048x64, .f32⟩
  | .hbm, ⟨3, _⟩ => ⟨S_, .f32⟩
  | .hbm, ⟨4, _⟩ => ⟨S4x8x2048, .f32⟩
  | .hbm, ⟨5, _⟩ => ⟨S4x8x2048x1, .f32⟩
  | .hbm, ⟨6, _⟩ => ⟨S4x8x64x2048, .f32⟩
  | .hbm, ⟨7, _⟩ => ⟨S_, .f32⟩
  | .hbm, ⟨8, _⟩ => ⟨S4x8x2048, .f32⟩
  | .hbm, ⟨9, _⟩ => ⟨S4x8x1x2048, .f32⟩
  | .hbm, ⟨10, _⟩ => ⟨S4x8x2048x2048, .f32⟩
  | .hbm, ⟨11, _⟩ => ⟨S4x8x2048x2048, .f32⟩
  | .hbm, ⟨12, _⟩ => ⟨S4x8x2048x2048, .f32⟩
  | .hbm, ⟨13, _⟩ => ⟨S4x8x2048x2048, .f32⟩
  | .hbm, ⟨14, _⟩ => ⟨S_, .f32⟩
  | .hbm, ⟨15, _⟩ => ⟨S4x8x2048x2048, .f32⟩
  | .hbm, ⟨16, _⟩ => ⟨S4x8x2048x2048, .f32⟩
  | .hbm, ⟨17, _⟩ => ⟨S4x8x2048x2048, .f32⟩
  | _, _ => ⟨S4x8x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]

class Facts₀ : Prop where
  reducesTo_S4x8x2048x64_S4x8x2048_d3 : S4x8x2048x64.ReducesTo [3] S4x8x2048
  h_S_ : 0 < S_.numel
  bcast_S4x8x2048_S4x8x2048x1_0_1_2 : S4x8x2048.BroadcastsInDim S4x8x2048x1 (![0, 1, 2] : Fin 3 → Fin S4x8x2048x1.rank)
  reducesTo_S4x8x64x2048_S4x8x2048_d2 : S4x8x64x2048.ReducesTo [2] S4x8x2048
  bcast_S4x8x2048_S4x8x1x2048_0_1_3 : S4x8x2048.BroadcastsInDim S4x8x1x2048 (![0, 1, 3] : Fin 3 → Fin S4x8x1x2048.rank)
  bcast_S4x8x2048x1_S4x8x2048x2048_0_1_2_3 : S4x8x2048x1.BroadcastsInDim S4x8x2048x2048 (![0, 1, 2, 3] : Fin 4 → Fin S4x8x2048x2048.rank)
  bcast_S4x8x1x2048_S4x8x2048x2048_0_1_2_3 : S4x8x1x2048.BroadcastsInDim S4x8x2048x2048 (![0, 1, 2, 3] : Fin 4 → Fin S4x8x2048x2048.rank)
  bcast_S_S4x8x2048x2048 : S_.BroadcastsInDim S4x8x2048x2048 (![] : Fin 0 → Fin S4x8x2048x2048.rank)
  dot_S4x8x2048x64_S4x8x64x2048_S4x8x2048x2048_3_2_2_3_01_01_wf : DotDims.WF S4x8x2048x64 S4x8x64x2048 S4x8x2048x2048 [3] [2] [2] [3] [0, 1] [0, 1]

variable [Facts₀]

def dot_S4x8x2048x64_S4x8x64x2048_S4x8x2048x2048_3_2_2_3_01_01 : DotDims S4x8x2048x64 S4x8x64x2048 S4x8x2048x2048 where
  lhsContracting := [3]
  rhsContracting := [2]
  lhsNonContracting := [2]
  rhsNonContracting := [3]
  lhsBatch := [0, 1]
  rhsBatch := [0, 1]
  wf := dot_S4x8x2048x64_S4x8x64x2048_S4x8x2048x2048_3_2_2_3_01_01_wf

class Facts : Prop extends Facts₀ where

variable [Facts]
-- ==== Proof.BodyParts.lean ====
/-
  The pieces of the kernel body that are not pointwise, each read at an index at the ideal values:
  a vector turned into a column or a row by a shape cast, the sum of a matrix along its rows and along
  its columns, and the product of a 1024×66 by a 66×2048 matrix into a zero accumulator as a sum over
  the 66 contracted positions.
-/
import proofs.«111992_j88923002896506_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open Idealize.ShloMosaic Idealize.ShloMosaic.ValueIdx

namespace Cert.PairDist

open Cert.KernelIdeal Cert.KernelIdeal.Facts₀

variable {α : Type}

/-- A vector of length `a` cast to an `a × 1` column reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The sum of a 1024×64 matrix along each row, from the neutral accumulator: at row `r` the sum of that row's 64 entries. -/
theorem rowSum_at (v : FVec Ideal S1024x64 .f32) (hacc : (0x00000000#32 : BitVec 32) = 0x00000000#32) (r : Fin 1024) :
    multiReduction .add [1] S1024 v 0x00000000#32 reduces_S1024x64_S1024 (.inl rfl) hacc (ix1 r) = ∑ c : Fin 64, v (ix2 r c) :=
  (Ideal.multiReduction_add_single v 0x00000000#32 reduces_S1024x64_S1024 (.inl rfl) hacc (ix1 r)).trans
    (Finset.sum_congr rfl fun c _ => congrArg v (funext fun a => Fin.ext (by match a with | ⟨0, _⟩ => rfl | ⟨1, _⟩ => rfl)))

/-- The sum of a 64×2048 matrix down each column: at column `j` the sum of that column's 64 entries. -/
theorem colSum_at (v : FVec Ideal S64x2048 .f32) (hacc : (0x00000000#32 : BitVec 32) = 0x00000000#32) (j : Fin 2048) :
    multiReduction .add [0] S2048 v 0x00000000#32 reduces_S64x2048_S2048 (.inl rfl) hacc (ix1 j) = ∑ c : Fin 64, v (ix2 c j) :=
  (Ideal.multiReduction_add_single v 0x00000000#32 reduces_S64x2048_S2048 (.inl rfl) hacc (ix1 j)).trans
    (Finset.sum_congr rfl fun c _ => congrArg v (funext fun a => Fin.ext (by match a with | ⟨0, _⟩ => rfl | ⟨1, _⟩ => rfl)))

/-- The dimension numbers of the body's one matrix product: rows of the left operand against columns of the right. -/
abbrev Dm : DotDims S1024x66 S66x2048 S1024x2048 := dot_S1024x66_S66x2048_S1024x2048_1_0_0_1_n_n

theorem Dm_lhs_0 (i : S1024x2048.Idx) (q : Dm.contr.Idx) : (Dm.lhsIdx i q 0).val = (i 0).val := by
  unfold DotDims.lhsIdx
  rw [dif_neg (show ¬(0 : Fin S1024x66.rank) ∈ Dm.lhsBatch by decide), dif_pos (show (0 : Fin S1024x66.rank) ∈ Dm.lhsNonContracting by decide)]
  rfl
theorem Dm_lhs_1 (i : S1024x2048.Idx) (q : Dm.contr.Idx) : (Dm.lhsIdx i q 1).val = (q ⟨0, by decide⟩).val :=
  Dm.lhsIdx_val_of_single rfl i q
theorem Dm_rhs_0 (i : S1024x2048.Idx) (q : Dm.contr.Idx) : (Dm.rhsIdx i q 0).val = (q ⟨0, by decide⟩).val :=
  Dm.rhsIdx_val_of_single rfl i q
theorem Dm_rhs_1 (i : S1024x2048.Idx) (q : Dm.contr.Idx) : (Dm.rhsIdx i q 1).val = (i 1).val := by
  unfold DotDims.rhsIdx
  rw [dif_neg (show ¬(1 : Fin S66x2048.rank) ∈ Dm.rhsBatch by decide), dif_pos (show (1 : Fin S66x2048.rank) ∈ Dm.rhsNonContracting by decide)]
  rfl

/-- The matrix product into a zero accumulator, at `(r, j)`: the sum over the 66 contracted positions of the
    left operand's row `r` against the right operand's column `j`. -/
theorem mat_at (L : FVec Ideal S1024x66 .bf16) (R : FVec Ideal S66x2048 .bf16) (r : Fin 1024) (j : Fin 2048) :
    matmul Dm none L R (constant S1024x2048 .f32 0x00000000#32) (ix2 r j) = ∑ c : Fin 66, L (ix2 r c) * R (ix2 c j) := by
  simp only [matmul]
  rw [Ideal.matmul_constant_zero_apply, ← Equiv.sum_comp (contrEquiv1 Dm 66 rfl rfl).symm]
  refine Finset.sum_congr rfl fun c _ => ?_
  have hk := contrEquiv1_symm_val Dm 66 rfl rfl c
  have el : Dm.lhsIdx (ix2 r j) ((contrEquiv1 Dm 66 rfl rfl).symm c) = ix2 r c := funext fun a => Fin.ext (by
    match a with
    | ⟨0, _⟩ => exact Dm_lhs_0 _ _
    | ⟨1, _⟩ => exact (Dm_lhs_1 _ _).trans hk)
  have er : Dm.rhsIdx (ix2 r j) ((contrEquiv1 Dm 66 rfl rfl).symm c) = ix2 c j := funext fun a => Fin.ext (by
    match a with
    | ⟨0, _⟩ => exact (Dm_rhs_0 _ _).trans hk
    | ⟨1, _⟩ => exact Dm_rhs_1 _ _)
  rw [el, er]

end Cert.PairDist

end
-- ==== Proof.Payload.lean ====
/-
  The kernel body's result at an index, at the ideal values. The body multiplies a 1024×66 left operand
  by a 66×2048 right operand. The left operand is the query block with every entry doubled and negated,
  followed by a column of ones and a column holding each row's sum of squares; the right operand is the
  key block with, below it, a row holding each column's sum of squares and a row of ones. So entry
  `(r, j)` of the product is the sum over the 64 feature positions of `(-2 · q[r,c]) · k[c,j]`, plus
  `1 · Σ k[c,j]²`, plus `(Σ q[r,c]²) · 1`.
-/
import proofs.«111992_j88923002896506_2_alg».proof.Proof.BodyParts

noncomputable section

open Idealize.ShloMosaic Idealize.ShloMosaic.ValueIdx

namespace Cert.PairDist

open Cert.KernelIdeal Cert.KernelIdeal.Facts₀
open Cert.KernelIdeal.Gen (k0_pay1)

/-- The query block as a 1024×64 matrix. -/
abbrev qMat (x0 : Vec Ideal S1x1024x64 .f32) : FVec Ideal S1024x64 .f32 := shapeCast S1024x64 x0 shapeCasts_S1x1024x64_S1024x64
/-- The key block as a 64×2048 matrix. -/
abbrev kMat (x1 : Vec Ideal S1x64x2048 .f32) : FVec Ideal S64x2048 .f32 := shapeCast S64x2048 x1 shapeCasts_S1x64x2048_S64x2048

/-- The left operand: `-2 · q`, a column of ones, the column of the rows' sums of squares. -/
def lhsMat (x0 : Vec Ideal S1x1024x64 .f32) : FVec Ideal S1024x66 .f32 :=
  concatenate S1024x66 1
    [⟨S1024x64, mulf (broadcast S1024x64 (Scalar.ofBits (F := Ideal) .f32 0xC0000000#32)) (qMat x0)⟩,
     ⟨S1024x1, broadcast S1024x1 (Scalar.ofBits (F := Ideal) .f32 0x3F800000#32)⟩,
     ⟨S1024x1, shapeCast S1024x1 (multiReduction .add [1] S1024 (mulf (qMat x0) (qMat x0)) 0x00000000#32 reduces_S1024x64_S1024 (.inl rfl) rfl) shapeCasts_S1024_S1024x1⟩]
    concatenates_S1024x64_S1024x1_S1024x1_S1024x66_d1

/-- The right operand: `k`, the row of the columns' sums of squares, a row of ones. -/
def rhsMat (x1 : Vec Ideal S1x64x2048 .f32) : FVec Ideal S66x2048 .f32 :=
  concatenate S66x2048 0
    [⟨S64x2048, kMat x1⟩,
     ⟨S1x2048, shapeCast S1x2048 (multiReduction .add [0] S2048 (mulf (kMat x1) (kMat x1)) 0x00000000#32 reduces_S64x2048_S2048 (.inl rfl) rfl) shapeCasts_S2048_S1x2048⟩,
     ⟨S1x2048, broadcast S1x2048 (Scalar.ofBits (F := Ideal) .f32 0x3F800000#32)⟩]
    concatenates_S64x2048_S1x2048_S1x2048_S66x2048_d0

/-- The body's stored value is the product of the two operands into a zero accumulator (the two narrowings of
    format are the identity at the ideal values and are kept as written). -/
theorem pay_eq (x0 : Vec Ideal S1x1024x64 .f32) (x1 : Vec Ideal S1x64x2048 .f32) :
    k0_pay1 (F := Ideal) x0 x1 = shapeCast S1x1024x2048
      (matmul Dm none (truncf .bf16 (lhsMat x0) bitsLt_bf16_f32) (truncf .bf16 (rhsMat x1) bitsLt_bf16_f32) (constant S1024x2048 .f32 0x00000000#32))
      shapeCasts_S1024x2048_S1x1024x2048 := rfl

/-! ## The left operand, column by column -/

theorem lhsMat_lo (x0 : Vec Ideal S1x1024x64 .f32) (r : Fin 1024) (cc : Fin 66) (c : Fin 64) (hc : cc.val = c.val) :
    lhsMat x0 (ix2 r cc) = Ideal.ofBits .f32 0xC0000000#32 * x0 (ix3 (0 : Fin 1) r c) := by
  unfold lhsMat
  refine Eq.trans (concatenate_apply_piece (1 : Fin S1024x66.rank) _ _ (ix2 r cc) 0 ?_ S1024x64 _ rfl rfl 0 rfl (ix2 r c) ?_ ?_) ?_
  · exact (by decide : (0 : ℕ) < 3)
  · intro b hb
    match b with
    | ⟨0, _⟩ => rfl
    | ⟨1, _⟩ => exact absurd rfl hb
  · show 0 + c.val = cc.val
    omega
  · show Ideal.ofBits .f32 0xC0000000#32 * shapeCast S1024x64 x0 shapeCasts_S1x1024x64_S1024x64 (ix2 r c) = _
    rw [shapeCast_1ab_ab_apply]

theorem lhsMat_64 (x0 : Vec Ideal S1x1024x64 .f32) (r : Fin 1024) (cc : Fin 66) (hc : cc.val = 64) :
    lhsMat x0 (ix2 r cc) = Ideal.ofBits .f32 0x3F800000#32 := by
  unfold lhsMat
  refine Eq.trans (concatenate_apply_piece (1 : Fin S1024x66.rank) _ _ (ix2 r cc) 1 ?_ S1024x1 _ rfl rfl 64 rfl (ix2 r (0 : Fin 1)) ?_ ?_) ?_
  · exact (by decide : (1 : ℕ) < 3)
  · intro b hb
    match b with
    | ⟨0, _⟩ => rfl
    | ⟨1, _⟩ => exact absurd rfl hb
  · show 64 + 0 = cc.val
    omega
  · rfl

theorem lhsMat_65 (x0 : Vec Ideal S1x1024x64 .f32) (r : Fin 1024) (cc : Fin 66) (hc : cc.val = 65) :
    lhsMat x0 (ix2 r cc) = ∑ c : Fin 64, x0 (ix3 (0 : Fin 1) r c) * x0 (ix3 (0 : Fin 1) r c) := by
  unfold lhsMat
  refine Eq.trans (concatenate_apply_piece (1 : Fin S1024x66.rank) _ _ (ix2 r cc) 2 ?_ S1024x1 _ rfl rfl 65 rfl (ix2 r (0 : Fin 1)) ?_ ?_) ?_
  · exact (by decide : (2 : ℕ) < 3)
  · intro b hb
    match b with
    | ⟨0, _⟩ => rfl
    | ⟨1, _⟩ => exact absurd rfl hb
  · show 65 + 0 = cc.val
    omega
  · refine (shapeCast_a_a1_apply _ shapeCasts_S1024_S1024x1 r (0 : Fin 1)).trans ?_
    refine (rowSum_at _ rfl r).trans (Finset.sum_congr rfl fun c _ => ?_)
    show shapeCast S1024x64 x0 shapeCasts_S1x1024x64_S1024x64 (ix2 r c) * shapeCast S1024x64 x0 shapeCasts_S1x1024x64_S1024x64 (ix2 r c) = _
    rw [shapeCast_1ab_ab_apply]

/-! ## The right operand, row by row -/

theorem rhsMat_lo (x1 : Vec Ideal S1x64x2048 .f32) (j : Fin 2048) (cc : Fin 66) (c : Fin 64) (hc : cc.val = c.val) :
    rhsMat x1 (ix2 cc j) = x1 (ix3 (0 : Fin 1) c j) := by
  unfold rhsMat
  refine Eq.trans (concatenate_apply_piece (0 : Fin S66x2048.rank) _ _ (ix2 cc j) 0 ?_ S64x2048 _ rfl rfl 0 rfl (ix2 c j) ?_ ?_) ?_
  · exact (by decide : (0 : ℕ) < 3)
  · intro b hb
    match b with
    | ⟨0, _⟩ => exact absurd rfl hb
    | ⟨1, _⟩ => rfl
  · show 0 + c.val = cc.val
    omega
  · show shapeCast S64x2048 x1 shapeCasts_S1x64x2048_S64x2048 (ix2 c j) = _
    rw [shapeCast_1ab_ab_apply]

theorem rhsMat_64 (x1 : Vec Ideal S1x64x2048 .f32) (j : Fin 2048) (cc : Fin 66) (hc : cc.val = 64) :
    rhsMat x1 (ix2 cc j) = ∑ c : Fin 64, x1 (ix3 (0 : Fin 1) c j) * x1 (ix3 (0 : Fin 1) c j) := by
  unfold rhsMat
  refine Eq.trans (concatenate_apply_piece (0 : Fin S66x2048.rank) _ _ (ix2 cc j) 1 ?_ S1x2048 _ rfl rfl 64 rfl (ix2 (0 : Fin 1) j) ?_ ?_) ?_
  · exact (by decide : (1 : ℕ) < 3)
  · intro b hb
    match b with
    | ⟨0, _⟩ => exact absurd rfl hb
    | ⟨1, _⟩ => rfl
  · show 64 + 0 = cc.val
    omega
  · refine (shapeCast_a_1a_apply _ shapeCasts_S2048_S1x2048 (0 : Fin 1) j).trans ?_
    refine (colSum_at _ rfl j).trans (Finset.sum_congr rfl fun c _ => ?_)
    show shapeCast S64x2048 x1 shapeCasts_S1x64x2048_S64x2048 (ix2 c j) * shapeCast S64x2048 x1 shapeCasts_S1x64x2048_S64x2048 (ix2 c j) = _
    rw [shapeCast_1ab_ab_apply]

theorem rhsMat_65 (x1 : Vec Ideal S1x64x2048 .f32) (j : Fin 2048) (cc : Fin 66) (hc : cc.val = 65) :
    rhsMat x1 (ix2 cc j) = Ideal.ofBits .f32 0x3F800000#32 := by
  unfold rhsMat
  refine Eq.trans (concatenate_apply_piece (0 : Fin S66x2048.rank) _ _ (ix2 cc j) 2 ?_ S1x2048 _ rfl rfl 65 rfl (ix2 (0 : Fin 1) j) ?_ ?_) ?_
  · exact (by decide : (2 : ℕ) < 3)
  · intro b hb
    match b with
    | ⟨0, _⟩ => exact absurd rfl hb
    | ⟨1, _⟩ => rfl
  · show 65 + 0 = cc.val
    omega
  · rfl

/-! ## The product at an index -/

/-- Entry `(r, j)` of the body's result: the 66 contracted positions split into the 64 feature positions and the two
    appended ones. -/
theorem pay_at (x0 : Vec Ideal S1x1024x64 .f32) (x1 : Vec Ideal S1x64x2048 .f32) (r : Fin 1024) (j : Fin 2048) :
    k0_pay1 (F := Ideal) x0 x1 (ix3 (0 : Fin 1) r j)
    = (∑ c : Fin 64, (Ideal.ofBits .f32 0xC0000000#32 * x0 (ix3 (0 : Fin 1) r c)) * x1 (ix3 (0 : Fin 1) c j))
      + Ideal.ofBits .f32 0x3F800000#32 * (∑ c : Fin 64, x1 (ix3 (0 : Fin 1) c j) * x1 (ix3 (0 : Fin 1) c j))
      + (∑ c : Fin 64, x0 (ix3 (0 : Fin 1) r c) * x0 (ix3 (0 : Fin 1) r c)) * Ideal.ofBits .f32 0x3F800000#32 := by
  rw [pay_eq, shapeCast_ab_1ab_apply, mat_at, Fin.sum_univ_castSucc, Fin.sum_univ_castSucc]
  show (∑ c : Fin 64, lhsMat x0 (ix2 r c.castSucc.castSucc) * rhsMat x1 (ix2 c.castSucc.castSucc j))
      + lhsMat x0 (ix2 r (Fin.last 64).castSucc) * rhsMat x1 (ix2 (Fin.last 64).castSucc j)
      + lhsMat x0 (ix2 r (Fin.last 65)) * rhsMat x1 (ix2 (Fin.last 65) j) = _
  rw [lhsMat_64 x0 r _ rfl, rhsMat_64 x1 j _ rfl, lhsMat_65 x0 r _ rfl, rhsMat_65 x1 j _ rfl]
  refine congrArg (· + _ + _) (Finset.sum_congr rfl fun c _ => ?_)
  rw [lhsMat_lo x0 r _ c rfl, rhsMat_lo x1 j _ c rfl]

end Cert.PairDist

end
-- ==== Proof.OutputCover.lean ====
import proofs.«111992_j88923002896506_2_alg».proof.Proof.Gen.KernelIdeal.Frame
import Idealize.ShloMosaic.Lib.Pipeline.Value

set_option maxRecDepth 16384
noncomputable section
open Idealize.ShloMosaic Idealize.ShloMosaic.TcCoe Idealize.SL.Sem

/-!
  The output's blocks tile the output array.

  The region runs over a grid of 32 × 2 points; write (g, s) for a point's coordinates. Each of the three
  windows names, at a point, the block of its array it stands on: the first input's block index is (g, s, 0),
  the second input's is (g, 0, 0), the output's is (g, s, 0). These relations are finite statements over the
  64 points and are decided outright. A block of the output has extents 1 × 1024 × 2048 inside an array of
  extents 32 × 2048 × 2048, so the index (a, r, j) lies in the block whose index is (a, r / 1024, 0): on the
  first axis a * 1 ≤ a < a * 1 + 1, on the second (r / 1024) * 1024 ≤ r < (r / 1024) * 1024 + 1024, on the
  third 0 ≤ j < 2048. That block index is taken by some grid point, and every point writes its block back.
-/

namespace Cert.PairDist
open Cert.KernelIdeal Cert.KernelIdeal.Facts₀ Cert.KernelIdeal.Gen

/-- How the three windows' block indices move together over the grid. -/
theorem block_index_facts : ∀ t : Fin cfg0.N,
    win0_0.index t (0 : Fin 3) = win0_2.index t (0 : Fin 3) ∧ win0_0.index t (1 : Fin 3) = win0_2.index t (1 : Fin 3) ∧ win0_0.index t (2 : Fin 3) = 0
    ∧ win0_1.index t (0 : Fin 3) = win0_2.index t (0 : Fin 3) ∧ win0_1.index t (1 : Fin 3) = 0 ∧ win0_1.index t (2 : Fin 3) = 0
    ∧ win0_2.index t (0 : Fin 3) ≤ 31 ∧ win0_2.index t (1 : Fin 3) ≤ 1 ∧ win0_2.index t (2 : Fin 3) = 0 :=
  (by decide +kernel : ∀ t : Fin grid0.N, _)

/-- Every pair (g, s) with g < 32 and s < 2 is the output block index, with a trailing 0, of some grid point. -/
theorem out_index_onto : ∀ (q0 : Fin 32) (q1 : Fin 2), ∃ t : Fin cfg0.N, win0_2.index t = ![q0.val, q1.val, 0] :=
  (by decide +kernel : ∀ (q0 : Fin 32) (q1 : Fin 2), ∃ t : Fin grid0.N, win0_2.index t = ![q0.val, q1.val, 0])

/-- An index of the output array is in point t's block iff each coordinate is in the block's range on its axis. -/
theorem mem_out_block (t : Fin cfg0.N) (i : S32x2048x2048.Idx) :
    i ∈ ((cfg0.win 2).blk t).view.set ↔ ∀ a : Fin 3, win0_2.index t a * S1x1024x2048.size a ≤ (i a).val ∧ (i a).val < win0_2.index t a * S1x1024x2048.size a + S1x1024x2048.size a := by
  show i ∈ ((View.whole main_v2).slice (win0_2.rect t)).set ↔ _
  rw [View.set_slice_whole, Rect.mem_set_unit]
  exact Iff.rfl

/-- Every index of the output array is in the block of some point that writes back. -/
theorem out_cover (i : S32x2048x2048.Idx) : ∃ t : Fin cfg0.N, (cfg0.win 2).flush t = true ∧ i ∈ ((cfg0.win 2).blk t).view.set := by
  have hi0 : (i 0).val < 32 := (i 0).isLt
  have hi1 : (i 1).val < 2048 := (i 1).isLt
  have hi2 : (i 2).val < 2048 := (i 2).isLt
  obtain ⟨t, ht⟩ := out_index_onto ⟨(i 0).val, hi0⟩ ⟨(i 1).val / 1024, by omega⟩
  have q0 : win0_2.index t (0 : Fin 3) = (i 0).val := congrFun ht 0
  have q1 : win0_2.index t (1 : Fin 3) = (i 1).val / 1024 := congrFun ht 1
  have q2 : win0_2.index t (2 : Fin 3) = 0 := congrFun ht 2
  refine ⟨t, flush0_2 t, ?_⟩
  rw [mem_out_block]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 1024 ≤ (i 1).val ∧ (i 1).val < win0_2.index t (1 : Fin 3) * 1024 + 1024; omega
  | ⟨2, _⟩ => show win0_2.index t (2 : Fin 3) * 2048 ≤ (i 2).val ∧ (i 2).val < win0_2.index t (2 : Fin 3) * 2048 + 2048; omega

end Cert.PairDist
end
-- ==== Proof.OutputArray.lean ====
/-
  The output array after the region, as ONE function of the two staged arrays. Grid point `(g, s)` loads
  rows `1024·s … 1024·s + 1023` of slab `g` of the query array and the whole slab `g` of the key array,
  and writes back rows `1024·s …` of slab `g` of the output. What it writes is the body's result on
  those blocks, so every written entry `(g, r, j)` is the same expression of row `r` of the query slab and
  column `j` of the key slab; and the written blocks tile the output, so the whole array is that expression.
-/
import proofs.«111992_j88923002896506_2_alg».proof.Proof.Payload
import proofs.«111992_j88923002896506_2_alg».proof.Proof.OutputCover
import proofs.«111992_j88923002896506_2_alg».proof.Proof.Gen.KernelIdeal.Frame

noncomputable section

open Idealize.ShloMosaic Idealize.ShloMosaic.ValueIdx

open Idealize.ShloMosaic.TcCoe Idealize.SL.Sem

namespace Cert.PairDist

open Cert.KernelIdeal Cert.KernelIdeal.Gen

/-- Entry `(g, r, j)` of the output from slab `g` of the two staged arrays: the doubled, negated inner product of
    query row `r` and key column `j`, plus the column's sum of squares, plus the row's sum of squares. -/
def outAt (a0 : S32x2048x64.Idx → EReal) (a1 : S32x64x2048.Idx → EReal) (g : Fin 32) (r : Fin 2048) (j : Fin 2048) : EReal :=
  (∑ c : Fin 64, (Ideal.ofBits .f32 0xC0000000#32 * a0 (ix3 g r c)) * a1 (ix3 g c j))
    + Ideal.ofBits .f32 0x3F800000#32 * (∑ c : Fin 64, a1 (ix3 g c j) * a1 (ix3 g c j))
    + (∑ c : Fin 64, a0 (ix3 g r c) * a0 (ix3 g r c)) * Ideal.ofBits .f32 0x3F800000#32

/-- The whole output array. -/
def outArr (a0 : S32x2048x64.Idx → EReal) (a1 : S32x64x2048.Idx → EReal) : S32x2048x2048.Idx → EReal :=
  fun i => outAt a0 a1 (i 0) (i 1) (i 2)

theorem offsets_zero : (![0, 0, 0] : Fin 3 → Nat) = fun _ => 0 := funext fun a => by fin_cases a <;> rfl

variable (m : (ℓ : Loc nD τ sig) → Buf (Elt Ideal) ℓ)

/-- What point `t` writes back is block `t` of `outArr` of the arrays the region finds. -/
theorem flushed_eq (c : Dev nD) (t : Fin cfg0.N) :
    (dats m 0 c).flushed 2 t = ((cfg0.win 2).blk t).view.read (Elt Ideal) (outArr (V m c main_v0) (V m c main_v1)) := by
  show (cfg0.win 2).cut (grid0.coords t) ((dats m 0 c).after 2 t) = _
  rw [after0_2]
  unfold out0_2
  rw [View.canon_unit_zero offsets_zero]
  simp only [View.ld_unit_zero (S := S1x1024x64) offsets_zero, View.ld_unit_zero (S := S1x64x2048) offsets_zero]
  obtain ⟨e00, e01, e02, e10, e11, e12, b0, b1, e22⟩ := block_index_facts t
  funext y
  obtain ⟨u, r, j, rfl⟩ : ∃ (u : Fin 1) (r : Fin 1024) (j : Fin 2048), y = ix3 u r j := ⟨y 0, y 1, y 2, eq_ix3 y⟩
  obtain rfl : u = 0 := Subsingleton.elim _ _
  refine (pay_at (iblk m c 0 t) (iblk m c 1 t) r j).trans ?_
  have h0 : ∀ cc : Fin 64, iblk m c 0 t (ix3 (0 : Fin 1) r cc)
      = V m c main_v0 (ix3 (((cfg0.win 2).blk t).view.emb (ix3 (0 : Fin 1) r j) 0) (((cfg0.win 2).blk t).view.emb (ix3 (0 : Fin 1) r j) 1) cc) := fun cc => by
    show V m c main_v0 (((cfg0.win 0).blk t).view.emb (ix3 (0 : Fin 1) r cc)) = _
    refine congrArg (V m c main_v0) (funext fun a => Fin.ext ?_)
    match a with
    | ⟨0, _⟩ => show win0_0.index t (0 : Fin 3) * 1 + 1 * 0 = win0_2.index t (0 : Fin 3) * 1 + 1 * 0; omega
    | ⟨1, _⟩ => show win0_0.index t (1 : Fin 3) * 1024 + 1 * r.val = win0_2.index t (1 : Fin 3) * 1024 + 1 * r.val; omega
    | ⟨2, _⟩ => show win0_0.index t (2 : Fin 3) * 64 + 1 * cc.val = cc.val; omega
  have h1 : ∀ cc : Fin 64, iblk m c 1 t (ix3 (0 : Fin 1) cc j)
      = V m c main_v1 (ix3 (((cfg0.win 2).blk t).view.emb (ix3 (0 : Fin 1) r j) 0) cc (((cfg0.win 2).blk t).view.emb (ix3 (0 : Fin 1) r j) 2)) := fun cc => by
    show V m c main_v1 (((cfg0.win 1).blk t).view.emb (ix3 (0 : Fin 1) cc j)) = _
    refine congrArg (V m c main_v1) (funext fun a => Fin.ext ?_)
    match a with
    | ⟨0, _⟩ => show win0_1.index t (0 : Fin 3) * 1 + 1 * 0 = win0_2.index t (0 : Fin 3) * 1 + 1 * 0; omega
    | ⟨1, _⟩ => show win0_1.index t (1 : Fin 3) * 64 + 1 * cc.val = cc.val; omega
    | ⟨2, _⟩ => show win0_1.index t (2 : Fin 3) * 2048 + 1 * j.val = win0_2.index t (2 : Fin 3) * 2048 + 1 * j.val; omega
  simp only [h0, h1]
  rfl

/-- The output array after the run. -/
theorem out_final (c : Dev nD) : (dats m 0 c).arrAt 2 cfg0.N = outArr (V m c main_v0) (V m c main_v1) :=
  (dats m 0 c).arrAt_eq_of_cover 2 _ (fun t _ => flushed_eq m c t) out_cover

end Cert.PairDist

end
-- ==== Proof.HostStretches.lean ====
import proofs.«111992_j88923002896506_2_alg».proof.Proof.Gen.KernelIdeal.Frame
import Idealize.ShloMosaic.Lib.StableHlo.Run
import Idealize.ShloMosaic.Lib.Pipeline.Value
import Idealize.ShloMosaic.PureOps.Ideal.Laws

noncomputable section

/-!
The array reshapes around the kernel's one region, as equations between whole arrays of extended reals.

Before the region, the two four-axis inputs (4×8×2048×64 and 4×8×64×2048) are each re-indexed as a
three-axis array by merging the two leading axes (32×2048×64 and 32×64×2048). A re-indexing moves no
value: the array the region reads is the shape cast of the input as it was given. After the region, the
three-axis result (32×2048×2048) is re-indexed back to four axes (4×8×2048×2048): the final output is
the shape cast of the region's output array as it stands once every grid point's block has been written
back.
-/
open Idealize.ShloMosaic Idealize.ShloMosaic.TcCoe Idealize.SL.Sem
namespace Cert.PairDist
open Cert.KernelIdeal Cert.KernelIdeal.Gen
variable (m : (ℓ : Loc nD τ sig) → Buf (Elt Ideal) ℓ)

/-- The region's first input is the first argument with its two leading axes merged. -/
theorem V_main_v0 (c : Dev nD) : (V m c main_v0 : S32x2048x64.Idx → EReal)
    = shapeCast S32x2048x64 (m ((c : Thread nD τ).loc main_arg0)) Facts₀.shapeCasts_S4x8x2048x64_S32x2048x64 := by
  -- the value at this array after the two reshapes: the first writes it, the second leaves it alone
  show StableHlo.after hostOps0 (fun b => m (c, b)) (Proc.devRef .tc main_v0) = _
  after_results
  rfl

/-- The region's second input is the second argument with its two leading axes merged. -/
theorem V_main_v1 (c : Dev nD) : (V m c main_v1 : S32x64x2048.Idx → EReal)
    = shapeCast S32x64x2048 (m ((c : Thread nD τ).loc main_arg1)) Facts₀.shapeCasts_S4x8x64x2048_S32x64x2048 := by
  -- the first reshape leaves this array alone, the second writes it
  show StableHlo.after hostOps0 (fun b => m (c, b)) (Proc.devRef .tc main_v1) = _
  after_results
  rfl

/-- The final output is the region's output array, after all write-backs, with its leading axis split in two. -/
theorem tail_main_v3 (c : Dev nD) :
    (Pipeline.afterTail₀ cfgs (dats m) 0 (V0 m) [hostOps1] c main_v3 : S4x8x2048x2048.Idx → EReal)
    = shapeCast S4x8x2048x2048 ((dats m 0 c).arrAt 2 cfg0.N) Facts₀.shapeCasts_S32x2048x2048_S4x8x2048x2048 := by
  unfold Pipeline.afterTail₀
  show StableHlo.after hostOps1 _ (Proc.devRef .tc main_v3) = _
  after_results
  -- the reshape's operand is the third window's array, which at the region's exit holds that window's final contents
  have h : Pipeline.withArrays (cfgs 0).spec c (V0 m c) (fun w => (dats m 0 c).arrAt w (cfgs 0).N) (Proc.devRef .tc main_v2)
      = (dats m 0 c).arrAt 2 cfg0.N :=
    Pipeline.withArrays_arr spec0 launch0.win.arr_inj c (V0 m c) (fun w => (dats m 0 c).arrAt w (cfgs 0).N) 2
  rw [h]
  rfl

end Cert.PairDist
end
-- ==== Proof.LibMergeLeadingAxes.lean ====
/-
  A shape cast that merges the two leading axes of a rank-4 array into one (`[A, B, M, N]` to `[G, M, N]`
  with `G = A · B`), and the cast that splits them again, read at an index: entry `(a, b, i, j)` of the
  rank-4 array and entry `(a · B + b, i, j)` of the rank-3 array are the same entry, because both sit at the
  same row-major position. The merged coordinate is given by the caller together with the equation that
  says which pair it stands for, so the lemmas apply to literal extents without any arithmetic on types.
-/
import Idealize.ShloMosaic.Lib.Pipeline.Value
import Idealize.ShloMosaic.Lib.ValueIdx

noncomputable section

open Idealize.ShloMosaic Idealize.ShloMosaic.ValueIdx

namespace Cert.LibMergeLeadingAxes

variable {α : Type}

/-- `[A, B, M, N]` cast to `[G, M, N]`: at `(g, i, j)` with `g = a · B + b` it reads the operand at `(a, b, i, j)`. -/
theorem shapeCast_merge01_apply {A B G M N : ℕ} (x : (⟨4, ![A, B, M, N]⟩ : Shape).Idx → α)
    (h : (⟨4, ![A, B, M, N]⟩ : Shape).ShapeCasts ⟨3, ![G, M, N]⟩) (a : Fin A) (b : Fin B) (g : Fin G)
    (hg : g.val = a.val * B + b.val) (i : Fin M) (j : Fin N) :
    shapeCast ⟨3, ![G, M, N]⟩ x h (ix3 g i j) = x (ix4 a b i j) :=
  shapeCast_apply x h _ _ (by
    rw [Shape.rowMajor_val_four, Shape.rowMajor_val_three]
    show ((a.val * B + b.val) * M + i.val) * N + j.val = (g.val * M + i.val) * N + j.val
    rw [hg])

/-- `[G, M, N]` cast to `[A, B, M, N]`: at `(a, b, i, j)` it reads the operand at `(g, i, j)` with `g = a · B + b`. -/
theorem shapeCast_split01_apply {A B G M N : ℕ} (y : (⟨3, ![G, M, N]⟩ : Shape).Idx → α)
    (h : (⟨3, ![G, M, N]⟩ : Shape).ShapeCasts ⟨4, ![A, B, M, N]⟩) (a : Fin A) (b : Fin B) (g : Fin G)
    (hg : g.val = a.val * B + b.val) (i : Fin M) (j : Fin N) :
    shapeCast ⟨4, ![A, B, M, N]⟩ y h (ix4 a b i j) = y (ix3 g i j) :=
  shapeCast_apply y h _ _ (by
    rw [Shape.rowMajor_val_three, Shape.rowMajor_val_four]
    show (g.val * M + i.val) * N + j.val = ((a.val * B + b.val) * M + i.val) * N + j.val
    rw [hg])

end Cert.LibMergeLeadingAxes

end
-- ==== Proof.DistLaw.lean ====
import Idealize.ShloMosaic.PureOps.Ideal.Laws

noncomputable section
open Idealize.ShloMosaic

/-!
A pairwise squared distance, written two ways on the extended reals.

For finitely many coordinates `c`, and vectors `q`, `k` all of whose coordinates are real numbers,

  Σ_c (-2 · q_c) · k_c  +  1 · (Σ_c k_c · k_c)  +  (Σ_c q_c · q_c) · 1
    =  ((0 + Σ_c q_c · q_c) + (0 + Σ_c k_c · k_c))  -  2 · Σ_c q_c · k_c,

where the constants -2, 1, 2 and 0 are given as binary32 words, whose exact values are established
first. Finiteness of the coordinates is essential: on the extended reals multiplication does not
distribute over addition at the infinities, so the identity is proved by moving both sides into the
real numbers, where it is distributivity of multiplication over a finite sum followed by a
coordinate-wise ring identity.
-/

namespace Cert.PairDist

/-- The binary32 word with biased exponent 127 and zero significand is the number one. -/
theorem ofBits_one : Ideal.ofBits .f32 0x3F800000#32 = ((1 : ℝ) : EReal) := by
  simp [Ideal.ofBits, Ideal.ieee, -EReal.coe_mul]; norm_num

/-- The binary32 word with biased exponent 128 and zero significand is the number two. -/
theorem ofBits_two : Ideal.ofBits .f32 0x40000000#32 = ((2 : ℝ) : EReal) := by
  simp [Ideal.ofBits, Ideal.ieee, -EReal.coe_mul]; norm_num

/-- The same word with the sign bit set is minus two. -/
theorem ofBits_neg_two : Ideal.ofBits .f32 0xC0000000#32 = ((-2 : ℝ) : EReal) := by
  simp [Ideal.ofBits, Ideal.ieee, -EReal.coe_mul]; norm_num

/-- The embedding of the reals into the extended reals commutes with finite sums. -/
private theorem coe_finsum {ι : Type} (s : Finset ι) (f : ι → ℝ) :
    ((∑ c ∈ s, f c : ℝ) : EReal) = ∑ c ∈ s, ((f c : ℝ) : EReal) := by
  classical
  induction s using Finset.induction_on with
  | empty => simp
  | insert a s ha ih => rw [Finset.sum_insert ha, Finset.sum_insert ha, EReal.coe_add, ih]

/-- The squared-distance identity for vectors with real coordinates. -/
theorem dist_law {ι : Type} [Fintype ι] (q k : ι → EReal)
    (hq : ∀ c, ∃ r : ℝ, q c = (r : EReal)) (hk : ∀ c, ∃ r : ℝ, k c = (r : EReal)) :
    (∑ c, (Ideal.ofBits .f32 0xC0000000#32 * q c) * k c)
      + Ideal.ofBits .f32 0x3F800000#32 * (∑ c, k c * k c)
      + (∑ c, q c * q c) * Ideal.ofBits .f32 0x3F800000#32
    = ((Ideal.ofBits .f32 0x00000000#32 + ∑ c, q c * q c) + (Ideal.ofBits .f32 0x00000000#32 + ∑ c, k c * k c))
      - Ideal.ofBits .f32 0x40000000#32 * ∑ c, q c * k c := by
  -- name the real coordinates and replace q, k by their embeddings
  choose qr hqr using hq
  choose kr hkr using hk
  obtain rfl : q = fun c => ((qr c : ℝ) : EReal) := funext hqr
  obtain rfl : k = fun c => ((kr c : ℝ) : EReal) := funext hkr
  -- the four constants
  rw [ofBits_one, ofBits_two, ofBits_neg_two, Ideal.ofBits_zero_f32]
  -- both sides are embeddings of real numbers
  simp only [← EReal.coe_mul, ← coe_finsum, zero_add, ← EReal.coe_add, ← EReal.coe_sub]
  congr 1
  -- in the reals: distribute over the sums, gather into one sum, compare coordinate-wise
  simp only [Finset.mul_sum, mul_one, one_mul]
  rw [← Finset.sum_add_distrib, ← Finset.sum_add_distrib, ← Finset.sum_add_distrib, ← Finset.sum_sub_distrib]
  refine Finset.sum_congr rfl fun c _ => ?_
  ring

end Cert.PairDist
end
-- ==== Proof.RefAt.lean ====
import proofs.«111992_j88923002896506_2_alg».proof.Proof.Gen.ReferenceIdeal.Read
import Idealize.ShloMosaic.Lib.ValueIdx
import Idealize.ShloMosaic.PureOps.Ideal.Laws

/-! The reference's output element at position (b, h, r, j), over the extended reals:
    it is (0 + Σ_c x0[b,h,r,c]²) + (0 + Σ_c x1[b,h,c,j]²) − 2 · Σ_c x0[b,h,r,c] · x1[b,h,c,j],
    each sum running over the 64 positions of the contracted axis. The proof reads the
    sixteen operations from the last one back to the two arguments, and identifies the
    composed index maps of the broadcasts, the two axis sums and the contraction with
    plain coordinate tuples. -/

noncomputable section
open Idealize.ShloMosaic Idealize.ShloMosaic.ValueIdx

namespace Cert.PairDist

/-- Row norm: going back through the two broadcasts and the sum over the last axis,
    position (b, h, r, j) and summand c land on (b, h, r, c). -/
theorem idx_row (b : Fin 4) (h : Fin 8) (r : Fin 2048) (j : Fin 2048) (c : Fin 64) :
    Cert.ReferenceIdeal.Read.idx_main_v1
      (Cert.ReferenceIdeal.Read.idx_main_v2 (Cert.ReferenceIdeal.Read.idx_main_v7 (ix4 b h r j))) c
    = ix4 b h r c :=
  funext fun a => Fin.ext (by match a with | ⟨0, _⟩ => rfl | ⟨1, _⟩ => rfl | ⟨2, _⟩ => rfl | ⟨3, _⟩ => rfl)

/-- Column norm: going back through the two broadcasts and the sum over the third axis,
    position (b, h, r, j) and summand c land on (b, h, c, j). -/
theorem idx_col (b : Fin 4) (h : Fin 8) (r : Fin 2048) (j : Fin 2048) (c : Fin 64) :
    Cert.ReferenceIdeal.Read.idx_main_v4
      (Cert.ReferenceIdeal.Read.idx_main_v5 (Cert.ReferenceIdeal.Read.idx_main_v8 (ix4 b h r j))) c
    = ix4 b h c j :=
  funext fun a => Fin.ext (by match a with | ⟨0, _⟩ => rfl | ⟨1, _⟩ => rfl | ⟨2, _⟩ => rfl | ⟨3, _⟩ => rfl)

/-- Contraction: the left factor of summand c at (b, h, r, j) is read at (b, h, r, c). -/
theorem idx_dot_l (b : Fin 4) (h : Fin 8) (r : Fin 2048) (j : Fin 2048) (c : Fin 64) :
    Cert.ReferenceIdeal.Read.lidx_main_v6 (ix4 b h r j) c = ix4 b h r c :=
  funext fun a => Fin.ext (by match a with | ⟨0, _⟩ => rfl | ⟨1, _⟩ => rfl | ⟨2, _⟩ => rfl | ⟨3, _⟩ => rfl)

/-- Contraction: the right factor of summand c at (b, h, r, j) is read at (b, h, c, j). -/
theorem idx_dot_r (b : Fin 4) (h : Fin 8) (r : Fin 2048) (j : Fin 2048) (c : Fin 64) :
    Cert.ReferenceIdeal.Read.ridx_main_v6 (ix4 b h r j) c = ix4 b h c j :=
  funext fun a => Fin.ext (by match a with | ⟨0, _⟩ => rfl | ⟨1, _⟩ => rfl | ⟨2, _⟩ => rfl | ⟨3, _⟩ => rfl)

open Cert.ReferenceIdeal in
theorem ref_at (x0 : FVec Ideal S4x8x2048x64 .f32) (x1 : FVec Ideal S4x8x64x2048 .f32)
    (b : Fin 4) (h : Fin 8) (r : Fin 2048) (j : Fin 2048) :
    Cert.ReferenceIdeal.Read.val_main_v12 (F := Ideal) x0 x1 (ix4 b h r j)
    = ((Ideal.ofBits .f32 0x00000000#32 + ∑ c : Fin 64, x0 (ix4 b h r c) * x0 (ix4 b h r c))
        + (Ideal.ofBits .f32 0x00000000#32 + ∑ c : Fin 64, x1 (ix4 b h c j) * x1 (ix4 b h c j)))
      - Ideal.ofBits .f32 0x40000000#32 * ∑ c : Fin 64, x0 (ix4 b h r c) * x1 (ix4 b h c j) := by
  -- difference of (row norm + column norm) and (2 · contraction), each read back to the arguments
  rw [Read.val_main_v12_apply, Read.val_main_v9_apply, Read.val_main_v11_apply,
    Read.val_main_v7_apply, Read.val_main_v2_apply, Read.val_main_v1_apply,
    Read.val_main_v8_apply, Read.val_main_v5_apply, Read.val_main_v4_apply,
    Read.val_main_v10_apply, Read.val_main_v6_apply,
    Read.val_main_cst_apply, Read.val_main_cst_0_apply, Read.val_main_cst_1_apply]
  -- the squares under the two sums, and every composed index as a coordinate tuple
  simp only [Read.val_main_v0_apply, Read.val_main_v3_apply, idx_row, idx_col, idx_dot_l, idx_dot_r]
  -- what remains differs only in how the extended reals' +, −, · and the constants are spelled
  rfl

end Cert.PairDist
end
-- ==== Proof.Finite.lean ====
import proofs.«111992_j88923002896506_2_alg».proof.Pre_finite_inputs
import Idealize.ShloMosaic.PureOps.Ideal.Laws
import Idealize.ShloMosaic.Lib.ReduceAll
import Idealize.ShloMosaic.Lib.ValueIdx

noncomputable section
open Idealize.ShloMosaic Idealize.ShloMosaic.ValueIdx

/-!
  Finiteness of the inputs, read off the precondition.

  The precondition is a single bit: the conjunction, over every entry `x` of the two input arrays, of the
  comparison `|x| < +∞`. Here that bit is assumed to be 1 and the conclusion is drawn entry by entry: each
  entry of either array is (the coercion of) a real number. The argument: a conjunction of bits that is 1 has
  both halves 1; a conjunction over all entries that is 1 has every term 1; the absolute value of an extended
  real `x` is `max x (-x)`, which equals `⊤` when `x` is `⊥` or `⊤`, so `max x (-x) < ⊤` leaves only the reals.
-/

namespace Cert.PairDist

/-- The rank-0 shape has exactly one index: two index functions out of the empty set of axes agree. -/
instance subsingleton_S_ : Subsingleton Cert.Pre_finite_inputs.S_.Idx :=
  ⟨fun a b => funext fun d => d.elim0⟩

/-- An extended real whose absolute value `max x (-x)` lies strictly below `⊤` is a real number:
    at `⊥` and at `⊤` the maximum is `⊤` itself. -/
theorem real_of_abs_lt_top (x : EReal) (h : max x (-x) < ⊤) : ∃ r : ℝ, x = (r : EReal) := by
  induction x using EReal.rec with
  | bot => simp at h
  | coe r => exact ⟨r, rfl⟩
  | top => simp at h

/-- The f32 word `0x7F800000` denotes `⊤`. -/
theorem inf_word : Ideal.ofBits .f32 0x7F800000#32 = (⊤ : EReal) := by
  simp [Ideal.ofBits, Ideal.ieee]

/-- One entry: if the ordered comparison `|x| < +∞` answers 1, then `x` is a real number. -/
theorem real_of_cmp_one (x : Ideal .f32)
    (h : FloatOps.cmpf .olt (FloatOps.hostAbsf x) (FloatOps.ofBits (F := Ideal) .f32 0x7F800000#32) = 1#1) :
    ∃ r : ℝ, x = (r : EReal) := by
  apply real_of_abs_lt_top
  rw [Ideal.hostAbsf_def, Ideal.cmpf_def, Ideal.absf_def, Ideal.ofBits_def, inf_word] at h
  unfold Ideal.cmp at h
  by_contra hlt
  simp [hlt] at h

theorem finite_of_pre [Cert.Pre_finite_inputs.Facts]
    (x0 : FVec Ideal Cert.Pre_finite_inputs.S4x8x2048x64 .f32) (x1 : FVec Ideal Cert.Pre_finite_inputs.S4x8x64x2048 .f32)
    (h : Cert.Pre_finite_inputs.fn (F := Ideal) x0 x1 = fun _ => 1#1) :
    (∀ i, ∃ r : ℝ, x0 i = (r : EReal)) ∧ (∀ i, ∃ r : ℝ, x1 i = (r : EReal)) := by
  have h0 := congrFun h ValueIdx.ix0
  unfold Cert.Pre_finite_inputs.fn at h0
  dsimp only at h0
  obtain ⟨ha, hb⟩ := IntOp.andi_eq_one.1 h0
  refine ⟨fun i => ?_, fun i => ?_⟩
  · exact real_of_cmp_one (x0 i) (Host.reduce_andi_all _ _ _ _ _ ha i)
  · exact real_of_cmp_one (x1 i) (Host.reduce_andi_all _ _ _ _ _ hb i)

end Cert.PairDist
end
-- ==== Proof.KernelRun.lean ====
/-
  The idealized kernel's run with its result array named, and why that array is the reference's.
  The program reshapes the two arguments so that the batch and head axes become one axis of 32 slabs,
  runs the region, and reshapes the region's output back to four axes. So entry `(b, h, r, j)` of the
  result is entry `(8·b + h, r, j)` of the region's output, which reads row `r` of slab `8·b + h` of the
  reshaped query — row `(b, h, r)` of the query argument — and column `j` of the same slab of the key.
  That entry is the inner product folded with the two squared norms; when every input entry is a real
  number it equals the reference's `‖q‖² + ‖k‖² − 2·q·k`.
-/
import proofs.«111992_j88923002896506_2_alg».proof.Proof.OutputArray
import proofs.«111992_j88923002896506_2_alg».proof.Proof.HostStretches
import proofs.«111992_j88923002896506_2_alg».proof.Proof.LibMergeLeadingAxes
import proofs.«111992_j88923002896506_2_alg».proof.Proof.DistLaw
import proofs.«111992_j88923002896506_2_alg».proof.Proof.RefAt
import proofs.«111992_j88923002896506_2_alg».proof.Proof.Finite

noncomputable section

open Idealize.ShloMosaic Idealize.ShloMosaic.ValueIdx

open Idealize.ShloMosaic.TcCoe Idealize.SL.Sem

namespace Cert.PairDist

open Cert.KernelIdeal Cert.KernelIdeal.Gen Cert.LibMergeLeadingAxes

/-- The kernel's result as one function of its two arguments: merge the leading axes, the region's output, split them again. -/
def kernelOut (q : S4x8x2048x64.Idx → EReal) (k : S4x8x64x2048.Idx → EReal) : S4x8x2048x2048.Idx → EReal :=
  shapeCast S4x8x2048x2048
    (outArr (shapeCast S32x2048x64 q Facts₀.shapeCasts_S4x8x2048x64_S32x2048x64) (shapeCast S32x64x2048 k Facts₀.shapeCasts_S4x8x64x2048_S32x64x2048))
    Facts₀.shapeCasts_S32x2048x2048_S4x8x2048x2048

variable (m : (ℓ : Loc nD τ sig) → Buf (Elt Ideal) ℓ) (ρ : Dev nD → PrngReg)

/-- Every weakly fair execution of the idealized kernel program terminates with the result array at `kernelOut` of the
    arguments and the arguments unchanged. -/
theorem kernel_run : θ_run defs (onTc (τ := τ) (main (F := Ideal))) ⟨m, fun _ => 0, ρ⟩ fun r => ∀ c : Dev nD,
      r.2.mem ((c.tc : Thread nD τ).loc main_v3) = kernelOut (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
    ⟨(((h c).2 main_v3 (Pipeline.mem_restRefs_of main_v3 (by decide) (by decide))).trans (tail_main_v3 m c)).trans (by
        rw [out_final, V_main_v0, V_main_v1]; rfl),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

/-- The kernel's result at `(b, h, r, j)`, from row `(b, h, r)` of the query and column `(b, h, j)` of the key. -/
theorem kernelOut_at (q : S4x8x2048x64.Idx → EReal) (k : S4x8x64x2048.Idx → EReal) (b : Fin 4) (h : Fin 8) (r : Fin 2048) (j : Fin 2048) :
    kernelOut q k (ix4 b h r j)
    = (∑ c : Fin 64, (Ideal.ofBits .f32 0xC0000000#32 * q (ix4 b h r c)) * k (ix4 b h c j))
      + Ideal.ofBits .f32 0x3F800000#32 * (∑ c : Fin 64, k (ix4 b h c j) * k (ix4 b h c j))
      + (∑ c : Fin 64, q (ix4 b h r c) * q (ix4 b h r c)) * Ideal.ofBits .f32 0x3F800000#32 := by
  have hg : b.val * 8 + h.val < 32 := by omega
  unfold kernelOut
  rw [shapeCast_split01_apply _ _ b h (⟨b.val * 8 + h.val, hg⟩ : Fin 32) rfl r j]
  show outAt _ _ (⟨b.val * 8 + h.val, hg⟩ : Fin 32) r j = _
  unfold outAt
  simp only [shapeCast_merge01_apply _ _ b h (⟨b.val * 8 + h.val, hg⟩ : Fin 32) rfl]

/-- With every entry of both arguments a real number, the kernel's result array is the reference's. -/
theorem kernelOut_eq_ref (q : S4x8x2048x64.Idx → EReal) (k : S4x8x64x2048.Idx → EReal)
    (hq : ∀ i, ∃ x : ℝ, q i = (x : EReal)) (hk : ∀ i, ∃ x : ℝ, k i = (x : EReal)) :
    kernelOut q k = Cert.ReferenceIdeal.Read.val_main_v12 (F := Ideal) q k := by
  funext i
  obtain ⟨b, h, r, j, rfl⟩ : ∃ (b : Fin 4) (h : Fin 8) (r : Fin 2048) (j : Fin 2048), i = ix4 b h r j := ⟨i 0, i 1, i 2, i 3, eq_ix4 i⟩
  rw [kernelOut_at, ref_at]
  exact dist_law (fun c => q (ix4 b h r c)) (fun c => k (ix4 b h c j)) (fun c => hq _) (fun c => hk _)

end Cert.PairDist

end
-- ==== Proof.lean ====
/-
  The certificate of a pairwise squared-distance kernel against its reference.

  Both programs take a query array `q` of shape [4, 8, 2048, 64] and a key array `k` of shape
  [4, 8, 64, 2048] and return, for every batch `b`, head `h`, query row `r` and key column `j`,
  the squared distance `Σ_c (q[b,h,r,c] − k[b,h,c,j])²` in its expanded form. The reference computes
  `(0 + Σ q²) + (0 + Σ k²) − 2 · Σ q·k` with host operations. The kernel folds the two squared norms
  into ONE matrix product: it appends a column of ones and the column of `Σ q²` to `−2·q`, appends the
  row of `Σ k²` and a row of ones to `k`, and multiplies, so its entry is
  `Σ_c (−2·q_c)·k_c + 1·Σ k² + (Σ q²)·1`. The narrowing of the two operands to a shorter float format
  is the identity at the ideal values, and `1`, `2`, `−2` are exact. The two expressions agree on real
  numbers (distribute `−2` over the sum, drop the factors `1` and the summands `0`, reorder); on the extended
  reals that step needs every entry finite, which is the certificate's precondition.

  The three frames are the generated ones (the reference's is its generated run with the result dropped); the
  ideal pass rewrote nothing, so there is nothing to preserve; the value claim puts the kernel's run, with its
  result array named as one function of the arguments, beside the reference's generated run.
-/
import proofs.«111992_j88923002896506_2_alg».proof.Defs
import proofs.«111992_j88923002896506_2_alg».proof.Proof.Gen.Kernel.Frame
import proofs.«111992_j88923002896506_2_alg».proof.Proof.Gen.KernelIdeal.Frame
import proofs.«111992_j88923002896506_2_alg».proof.Proof.Gen.ReferenceIdeal.Run
import proofs.«111992_j88923002896506_2_alg».proof.Proof.Gen.ReferenceIdeal.Read
import proofs.«111992_j88923002896506_2_alg».proof.Proof.Gen.Pre_finite_inputs
import proofs.«111992_j88923002896506_2_alg».proof.Proof.KernelRun

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- The idealized kernel is the kernel's own text read at the ideal values: no rewrite to account for. -/
theorem preserves : Cert.preserves_Kernel_KernelIdeal := trivial

/-- From memories that agree on the two arguments, both finite entry by entry, the kernel ends with its result at
    `kernelOut` of the arguments and the reference with its result at its own last stage of the same arguments;
    the two arrays are equal. -/
theorem algebraic : Cert.algebraic_KernelIdeal_ReferenceIdeal := by
  intro m ρ m' ρ' hpre hagree
  refine ⟨fun c => Cert.PairDist.kernelOut (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), Cert.PairDist.kernel_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v12_eq, (hagree c).1, (hagree c).2]
  obtain ⟨hq, hk⟩ := Cert.PairDist.finite_of_pre _ _ (hpre c)
  exact (Cert.PairDist.kernelOut_eq_ref _ _ hq hk).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
